-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x256 : Shape := ⟨2, ![128, 256]⟩
abbrev S256 : Shape := ⟨1, ![256]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg6 : FVec F S256 .f32) (main_arg7 : FVec F S128x256 .f32) (main_arg8 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256 .f32 := Host.absf main_arg6
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S128x256 .f32 := Host.absf main_arg7
  let main_cst_8 : FVec F S_ .f32 := constant S_ .f32 0x7F800000#32
  let main_v25 : FVec F S128x256 .f32 := broadcastInDim S128x256 ![] bcast_S_S128x256 main_cst_8
  let main_v26 : IVec S128x256 1 := cmpf .olt main_v24 main_v25
  let main_c_9 : IVec S_ 1 := constantI S_ 1 1#1
  let main_v27 : IVec S_ 1 := (fun x v => Host.reduce IntOp.andi x v reducesTo_S128x256_S_d0_1 h_S_) main_v26 main_c_9
  let main_v28 : IVec S_ 1 := andi main_v23 main_v27
  let main_v29 : FVec F S256 .f32 := Host.absf main_arg8
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  main_v33

def fn {F : FTy → Type} [FloatOps F] (main_arg0 : FVec F S100000x128 .f32) (main_arg1 : IVec S1600000 32) (main_arg2 : IVec S1600000 32) (main_arg3 : FVec F S128x256 .f32) (main_arg4 : FVec F S256 .f32) (main_arg5 : FVec F S256 .f32) (main_arg6 : FVec F S256 .f32) (main_arg7 : FVec F S128x256 .f32) (main_arg8 : FVec F S256 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x256 .f32 := Host.absf main_arg3
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256 .f32 := Host.absf main_arg5
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg6 main_arg7 main_arg8 main_v13 main_v16
-- ==== Kernel.lean ====
abbrev S100000x128 : Shape := ⟨2, ![100000, 128]⟩
abbrev S1600000 : Shape := ⟨1, ![1600000]⟩
abbrev S128x256 : Shape := ⟨2, ![128, 256]⟩
abbrev S256 : Shape := ⟨1, ![256]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x256 : Shape := ⟨2, ![1, 256]⟩
abbrev S100000x256 : Shape := ⟨2, ![100000, 256]⟩
abbrev S10000x128 : Shape := ⟨2, ![10000, 128]⟩
abbrev S10000x1 : Shape := ⟨2, ![10000, 1]⟩
abbrev S10000x256 : Shape := ⟨2, ![10000, 256]⟩
abbrev S10000 : Shape := ⟨1, ![10000]⟩

abbrev nBuf : Space → Nat
  | .hbm => 49
  | .vmem => 14
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x256, .f32⟩
  | .hbm, ⟨4, _⟩ => ⟨S256, .f32⟩
  | .hbm, ⟨5, _⟩ => ⟨S256, .f32⟩
  | .hbm, ⟨6, _⟩ => ⟨S256, .f32⟩
  | .hbm, ⟨7, _⟩ => ⟨S128x256, .f32⟩
  | .hbm, ⟨8, _⟩ => ⟨S256, .f32⟩
  | .hbm, ⟨9, _⟩ => ⟨S_, .f32⟩
  | .hbm, ⟨10, _⟩ => ⟨S1600000, .f32⟩
  | .hbm, ⟨11, _⟩ => ⟨S_, .f32⟩
  | .hbm, ⟨12, _⟩ => ⟨S100000, .f32⟩
  | .hbm, ⟨13, _⟩ => ⟨S1600000x1, .i32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S1600000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000, .f32⟩
  | .hbm, ⟨27, _⟩ => ⟨S100000x1, .f32⟩
  | .hbm, ⟨28, _⟩ => ⟨S100000x128, .f32⟩
  | .hbm, ⟨29, _⟩ => ⟨S100000x128, .f32⟩
  | .hbm, ⟨30, _⟩ => ⟨S_, .i32⟩
  | .hbm, ⟨31, _⟩ => ⟨S1600000, .i32⟩
  | .hbm, ⟨32, _⟩ => ⟨S1600000, .i1⟩
  | .hbm, ⟨33, _⟩ => ⟨S_, .i32⟩
  | .hbm, ⟨34, _⟩ => ⟨S1600000, .i32⟩
  | .hbm, ⟨35, _⟩ => ⟨S1600000, .i32⟩
  | .hbm, ⟨36, _⟩ => ⟨S1600000, .i32⟩
  | .hbm, ⟨37, _⟩ => ⟨S1600000x1, .i32⟩
  | .hbm, ⟨38, _⟩ => ⟨S1600000x128, .f32⟩
  | .hbm, ⟨39, _⟩ => ⟨S_, .f32⟩
  | .hbm, ⟨40, _⟩ => ⟨S100000x128, .f32⟩
  | .hbm, ⟨41, _⟩ => ⟨S1600000x1, .i32⟩
  | .hbm, ⟨42, _⟩ => ⟨S100000x128, .f32⟩
  | .hbm, ⟨43, _⟩ => ⟨S100000x1, .f32⟩
  | .hbm, ⟨44, _⟩ => ⟨S1x256, .f32⟩
  | .hbm, ⟨45, _⟩ => ⟨S1x256, .f32⟩
  | .hbm, ⟨46, _⟩ => ⟨S1x256, .f32⟩
  | .hbm, ⟨47, _⟩ => ⟨S1x256, .f32⟩
  | .hbm, ⟨48, _⟩ => ⟨S100000x256, .f32⟩
  | .local _ .vmem, ⟨0, _⟩ => ⟨S10000x128, .f32⟩
  | .local _ .vmem, ⟨1, _⟩ => ⟨S10000x128, .f32⟩
  | .local _ .vmem, ⟨2, _⟩ => ⟨S10000x128, .f32⟩
  | .local _ .vmem, ⟨3, _⟩ => ⟨S10000x128, .f32⟩
  | .local _ .vmem, ⟨4, _⟩ => ⟨S10000x1, .f32⟩
  | .local _ .vmem, ⟨5, _⟩ => ⟨S10000x1, .f32⟩
  | .local _ .vmem, ⟨6, _⟩ => ⟨S128x256, .f32⟩
  | .local _ .vmem, ⟨7, _⟩ => ⟨S1x256, .f32⟩
  | .local _ .vmem, ⟨8, _⟩ => ⟨S1x256, .f32⟩
  | .local _ .vmem, ⟨9, _⟩ => ⟨S1x256, .f32⟩
  | .local _ .vmem, ⟨10, _⟩ => ⟨S128x256, .f32⟩
  | .local _ .vmem, ⟨11, _⟩ => ⟨S1x256, .f32⟩
  | .local _ .vmem, ⟨12, _⟩ => ⟨S10000x256, .f32⟩
  | .local _ .vmem, ⟨13, _⟩ => ⟨S10000x256, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_2 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst_3 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_4 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_5 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S10000x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  shapeCasts_S100000_S100000x1 : S100000.ShapeCasts S100000x1
  shapeCasts_S256_S1x256 : S256.ShapeCasts S1x256
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x128 : S10000x1.Broadcasts S10000x128
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S10000x256 : S1x256.Broadcasts S10000x256
  reduces_S10000x256_S10000 : S10000x256.Reduces [1] S10000
  shapeCasts_S10000_S10000x1 : S10000.ShapeCasts S10000x1
  broadcasts_S10000x1_S10000x256 : S10000x1.Broadcasts S10000x256
  inb_S10000x256_S10000x256_0_0 : ∀ a, (![0, 0] : Fin 2 → Nat) a + S10000x256.size a ≤ S10000x256.size a
  h_S10000x256 : 0 < S10000x256.numel
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S10000x128_S128x256_S10000x256_1_0_0_1_n_n_wf : DotDims.WF S10000x128 S128x256 S10000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S100000x128.size a
  hwx0_1 : ∀ i : grid0.Coords, EltTy.bits .f32 = 32 ∨ (Rect.block (s := S100000x128) S10000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x1.size a ≤ S100000x1.size a
  hwx0_2 : ∀ i : grid0.Coords, EltTy.bits .f32 = 32 ∨ (Rect.block (s := S100000x1) S10000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .f32 = 32 ∨ (Rect.block (s := S128x256) S128x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x256.size a ≤ S128x256.size a
  hwx0_7 : ∀ i : grid0.Coords, EltTy.bits .f32 = 32 ∨ (Rect.block (s := S128x256) S128x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x256.size a ≤ S1x256.size a
  hwx0_8 : ∀ i : grid0.Coords, EltTy.bits .f32 = 32 ∨ (Rect.block (s := S1x256) S1x256.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S10000x256.size a ≤ S100000x256.size a
  hwx0_9 : ∀ i : grid0.Coords, EltTy.bits .f32 = 32 ∨ (Rect.block (s := S100000x256) S10000x256.size (cc0_transform_9 i) (hinb0_9 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S10000x128_S128x256_S10000x256_1_0_0_1_n_n : DotDims S10000x128 S128x256 S10000x256 where
  lhsContracting := [1]
  rhsContracting := [0]
  lhsNonContracting := [0]
  rhsNonContracting := [1]
  lhsBatch := []
  rhsBatch := []
  wf := dot_S10000x128_S128x256_S10000x256_1_0_0_1_n_n_wf

abbrev win0_0 : Pipeline.Window sig grid0 :=
  Pipeline.Window.ofSpec (Memref.whole main_v25) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v26) S10000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v27) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v28) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v29) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S128x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v30) S1x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v31) S10000x256.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x256 : Shape := ⟨2, ![128, 256]⟩
abbrev S256 : Shape := ⟨1, ![256]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S100000x256 : Shape := ⟨2, ![100000, 256]⟩
abbrev S1x256 : Shape := ⟨2, ![1, 256]⟩

abbrev nBuf : Space → Nat
  | .hbm => 87
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x256, .f32⟩
  | .hbm, ⟨4, _⟩ => ⟨S256, .f32⟩
  | .hbm, ⟨5, _⟩ => ⟨S256, .f32⟩
  | .hbm, ⟨6, _⟩ => ⟨S256, .f32⟩
  | .hbm, ⟨7, _⟩ => ⟨S128x256, .f32⟩
  | .hbm, ⟨8, _⟩ => ⟨S256, .f32⟩
  | .hbm, ⟨9, _⟩ => ⟨S_, .f32⟩
  | .hbm, ⟨10, _⟩ => ⟨S1600000, .f32⟩
  | .hbm, ⟨11, _⟩ => ⟨S_, .f32⟩
  | .hbm, ⟨12, _⟩ => ⟨S100000, .f32⟩
  | .hbm, ⟨13, _⟩ => ⟨S1600000x1, .i32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S1600000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000, .f32⟩
  | .hbm, ⟨27, _⟩ => ⟨S100000x1, .f32⟩
  | .hbm, ⟨28, _⟩ => ⟨S100000x128, .f32⟩
  | .hbm, ⟨29, _⟩ => ⟨S100000x128, .f32⟩
  | .hbm, ⟨30, _⟩ => ⟨S_, .i32⟩
  | .hbm, ⟨31, _⟩ => ⟨S1600000, .i32⟩
  | .hbm, ⟨32, _⟩ => ⟨S1600000, .i1⟩
  | .hbm, ⟨33, _⟩ => ⟨S_, .i32⟩
  | .hbm, ⟨34, _⟩ => ⟨S1600000, .i32⟩
  | .hbm, ⟨35, _⟩ => ⟨S1600000, .i32⟩
  | .hbm, ⟨36, _⟩ => ⟨S1600000, .i32⟩
  | .hbm, ⟨37, _⟩ => ⟨S1600000x1, .i32⟩
  | .hbm, ⟨38, _⟩ => ⟨S1600000x128, .f32⟩
  | .hbm, ⟨39, _⟩ => ⟨S_, .f32⟩
  | .hbm, ⟨40, _⟩ => ⟨S100000x128, .f32⟩
  | .hbm, ⟨41, _⟩ => ⟨S1600000x1, .i32⟩
  | .hbm, ⟨42, _⟩ => ⟨S100000x128, .f32⟩
  | .hbm, ⟨43, _⟩ => ⟨S100000x1, .f32⟩
  | .hbm, ⟨44, _⟩ => ⟨S100000x128, .f32⟩
  | .hbm, ⟨45, _⟩ => ⟨S100000x128, .f32⟩
  | .hbm, ⟨46, _⟩ => ⟨S100000x256, .f32⟩
  | .hbm, ⟨47, _⟩ => ⟨S1x256, .f32⟩
  | .hbm, ⟨48, _⟩ => ⟨S100000x256, .f32⟩
  | .hbm, ⟨49, _⟩ => ⟨S100000x256, .f32⟩
  | .hbm, ⟨50, _⟩ => ⟨S_, .f32⟩
  | .hbm, ⟨51, _⟩ => ⟨S100000, .f32⟩
  | .hbm, ⟨52, _⟩ => ⟨S100000x1, .f32⟩
  | .hbm, ⟨53, _⟩ => ⟨S_, .f32⟩
  | .hbm, ⟨54, _⟩ => ⟨S100000x1, .f32⟩
  | .hbm, ⟨55, _⟩ => ⟨S100000x1, .f32⟩
  | .hbm, ⟨56, _⟩ => ⟨S100000x256, .f32⟩
  | .hbm, ⟨57, _⟩ => ⟨S100000x256, .f32⟩
  | .hbm, ⟨58, _⟩ => ⟨S100000x256, .f32⟩
  | .hbm, ⟨59, _⟩ => ⟨S_, .f32⟩
  | .hbm, ⟨60, _⟩ => ⟨S100000, .f32⟩
  | .hbm, ⟨61, _⟩ => ⟨S100000x1, .f32⟩
  | .hbm, ⟨62, _⟩ => ⟨S_, .f32⟩
  | .hbm, ⟨63, _⟩ => ⟨S100000x1, .f32⟩
  | .hbm, ⟨64, _⟩ => ⟨S100000x1, .f32⟩
  | .hbm, ⟨65, _⟩ => ⟨S100000x256, .f32⟩
  | .hbm, ⟨66, _⟩ => ⟨S100000x256, .f32⟩
  | .hbm, ⟨67, _⟩ => ⟨S_, .f32⟩
  | .hbm, ⟨68, _⟩ => ⟨S100000x1, .f32⟩
  | .hbm, ⟨69, _⟩ => ⟨S100000x1, .f32⟩
  | .hbm, ⟨70, _⟩ => ⟨S100000x1, .f32⟩
  | .hbm, ⟨71, _⟩ => ⟨S100000x256, .f32⟩
  | .hbm, ⟨72, _⟩ => ⟨S100000x256, .f32⟩
  | .hbm, ⟨73, _⟩ => ⟨S1x256, .f32⟩
  | .hbm, ⟨74, _⟩ => ⟨S100000x256, .f32⟩
  | .hbm, ⟨75, _⟩ => ⟨S100000x256, .f32⟩
  | .hbm, ⟨76, _⟩ => ⟨S1x256, .f32⟩
  | .hbm, ⟨77, _⟩ => ⟨S100000x256, .f32⟩
  | .hbm, ⟨78, _⟩ => ⟨S100000x256, .f32⟩
  | .hbm, ⟨79, _⟩ => ⟨S_, .f32⟩
  | .hbm, ⟨80, _⟩ => ⟨S100000x256, .f32⟩
  | .hbm, ⟨81, _⟩ => ⟨S100000x256, .f32⟩
  | .hbm, ⟨82, _⟩ => ⟨S100000x256, .f32⟩
  | .hbm, ⟨83, _⟩ => ⟨S1x256, .f32⟩
  | .hbm, ⟨84, _⟩ => ⟨S100000x256, .f32⟩
  | .hbm, ⟨85, _⟩ => ⟨S100000x256, .f32⟩
  | .hbm, ⟨86, _⟩ => ⟨S100000x256, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_2 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst_3 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_4 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_5 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_6 : Ref sig .tc := ⟨.hbm, 50, rfl⟩
abbrev main_v33 : Ref sig .tc := ⟨.hbm, 51, rfl⟩
abbrev main_v34 : Ref sig .tc := ⟨.hbm, 52, rfl⟩
abbrev main_cst_7 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_8 : Ref sig .tc := ⟨.hbm, 59, rfl⟩
abbrev main_v40 : Ref sig .tc := ⟨.hbm, 60, rfl⟩
abbrev main_v41 : Ref sig .tc := ⟨.hbm, 61, rfl⟩
abbrev main_cst_9 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_10 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_call0_cst : Ref sig .tc := ⟨.hbm, 79, rfl⟩
abbrev main_call0_v0 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  reducesTo_S100000x256_S100000_d1 : S100000x256.ReducesTo [1] S100000
  h_S_ : 0 < S_.numel
  bcast_S_S100000x1 : S_.BroadcastsInDim S100000x1 (![] : Fin 0 → Fin S100000x1.rank)
  bcast_S100000x1_S100000x256_0_1 : S100000x1.BroadcastsInDim S100000x256 (![0, 1] : Fin 2 → Fin S100000x256.rank)
  bcast_S_S100000x256 : S_.BroadcastsInDim S100000x256 (![] : Fin 0 → Fin S100000x256.rank)
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x256_S100000x256_1_0_0_1_n_n_wf : DotDims.WF S100000x128 S128x256 S100000x256 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x256_S100000x256_1_0_0_1_n_n : DotDims S100000x128 S128x256 S100000x256 where
  lhsContracting := [1]
  rhsContracting := [0]
  lhsNonContracting := [0]
  rhsNonContracting := [1]
  lhsBatch := []
  rhsBatch := []
  wf := dot_S100000x128_S128x256_S100000x256_1_0_0_1_n_n_wf

class Facts : Prop extends Facts₀ where

variable [Facts]
-- ==== Proof.Spec.lean ====
/-
  The mathematics of one graph-convolution block, row by row, over the extended reals.

  A node's row of the result depends on that node's row of the aggregated features (128 entries), on the node's
  in-degree factor (one number), and on the node's own feature row (128 entries); the weights are shared by all rows.
  The aggregated row is scaled by the degree factor and sent through an affine map to 256 entries; those 256 entries are
  normalised by their own mean and variance (both are sums over the row divided by the row length 256, the variance with
  a small constant added under the reciprocal square root), scaled and shifted entry by entry, and clipped below at zero;
  the node's own features go through a second affine map and are added.

  Nothing here is evaluated: the three float words (zero, the row length, the small constant) stay words, since the same
  word stands on both sides of the comparison this certificate makes.
-/
import Idealize.ShloMosaic.PureOps.Ideal
import Idealize.ShloMosaic.Lib.ValueIdx

noncomputable section

namespace Cert.GcnSpec

open Idealize.ShloMosaic Idealize.ShloMosaic.ValueIdx

/-- The float word of zero. -/
abbrev w0 : EReal := Ideal.ofBits .f32 0x00000000#32
/-- The float word of 256, the length of a row. -/
abbrev w256 : EReal := Ideal.ofBits .f32 0x43800000#32
/-- The float word of the constant added to the variance. -/
abbrev wEps : EReal := Ideal.ofBits .f32 0x3727C5AC#32

/-- Entry `e` of an affine map of a row of 128 entries: the row against column `e` of the weights, plus the bias. -/
def affine (x : Fin 128 → EReal) (W : Fin 128 → Fin 256 → EReal) (b : Fin 256 → EReal) (e : Fin 256) : EReal :=
  (∑ k : Fin 128, x k * W k e) + b e

/-- The mean of a row of 256 entries: their sum divided by 256. -/
def mean (g : Fin 256 → EReal) : EReal := Ideal.div (∑ e : Fin 256, g e) w256

/-- A row's entry with the row's mean taken off. -/
def centred (g : Fin 256 → EReal) (e : Fin 256) : EReal := g e - mean g

/-- Layer normalisation of a row: each centred entry times the reciprocal square root of the variance plus the
    constant, then scaled by `gamma` and shifted by `beta` entry by entry. -/
def layerNorm (g gamma beta : Fin 256 → EReal) (e : Fin 256) : EReal :=
  centred g e * Ideal.rsqrt (mean (fun e' => centred g e' * centred g e') + wEps) * gamma e + beta e

/-- Entry `e` of a node's result row. -/
def outRow (aggRow : Fin 128 → EReal) (nd : EReal) (featRow : Fin 128 → EReal) (W skipW : Fin 128 → Fin 256 → EReal)
    (b gamma beta skipb : Fin 256 → EReal) (e : Fin 256) : EReal :=
  max (layerNorm (affine (fun k => aggRow k * nd) W b) gamma beta e) w0 + affine featRow skipW skipb e

/-- The row and the column of an index of the result array. -/
abbrev rowOf (i : (⟨2, ![100000, 256]⟩ : Shape).Idx) : Fin 100000 := ⟨(i 0).val, (i 0).isLt⟩
abbrev colOf (i : (⟨2, ![100000, 256]⟩ : Shape).Idx) : Fin 256 := ⟨(i 1).val, (i 1).isLt⟩

/-- The whole result array as one function of the aggregated features, the degree factors, the features and the
    weights: at (r, e) it is entry `e` of node `r`'s result row. -/
def result (agg feat : (⟨2, ![100000, 128]⟩ : Shape).Idx → EReal) (nd : (⟨1, ![100000]⟩ : Shape).Idx → EReal)
    (W skipW : (⟨2, ![128, 256]⟩ : Shape).Idx → EReal) (b gamma beta skipb : (⟨1, ![256]⟩ : Shape).Idx → EReal) :
    (⟨2, ![100000, 256]⟩ : Shape).Idx → EReal := fun i =>
  outRow (fun k => agg (ix2 (rowOf i) k)) (nd (ix1 (rowOf i))) (fun k => feat (ix2 (rowOf i) k))
    (fun k e => W (ix2 k e)) (fun k e => skipW (ix2 k e))
    (fun e => b (ix1 e)) (fun e => gamma (ix1 e)) (fun e => beta (ix1 e)) (fun e => skipb (ix1 e)) (colOf i)

theorem result_apply (agg feat : (⟨2, ![100000, 128]⟩ : Shape).Idx → EReal) (nd : (⟨1, ![100000]⟩ : Shape).Idx → EReal)
    (W skipW : (⟨2, ![128, 256]⟩ : Shape).Idx → EReal) (b gamma beta skipb : (⟨1, ![256]⟩ : Shape).Idx → EReal)
    (r : Fin 100000) (e : Fin 256) :
    result agg feat nd W skipW b gamma beta skipb (ix2 r e)
      = outRow (fun k => agg (ix2 r k)) (nd (ix1 r)) (fun k => feat (ix2 r k))
          (fun k e => W (ix2 k e)) (fun k e => skipW (ix2 k e))
          (fun e => b (ix1 e)) (fun e => gamma (ix1 e)) (fun e => beta (ix1 e)) (fun e => skipb (ix1 e)) e := rfl

end Cert.GcnSpec

end
-- ==== Proof.LibColumn.lean ====
/-
  Two layout operations read at an index, for a sum kept as a column: a vector of `a` entries cast to an
  `a × 1` column reads, at (i, 0), the vector at `i`; and an `a × 1` column broadcast to `a × b` reads, at (p, c), the
  column's entry in row `p`, whatever the lane `c`. Both are stated over literal rank-2 indices built from their
  coordinates, so that they rewrite under a payload's other operations.
-/
import Idealize.ShloMosaic.Lib.Pipeline.Value
import Idealize.ShloMosaic.Lib.ValueIdx

namespace Cert.LibColumn

open Idealize.ShloMosaic Idealize.ShloMosaic.ValueIdx

variable {α : Type}

/-- An `[a]` array cast to `[a, 1]` reads, at `(i, u)`, the operand at `i`, whatever the unit coordinate `u`:
    both sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.LibPlainDot.lean ====
/-
  A plain matrix product read at an index, at the extended reals.

  For a rank-2 product `[M, K] · [K, N] → [M, N]` (one contracted axis: the left operand's columns against the right
  operand's rows, no batch axis) accumulated into the zero block, the entry at `(p, e)` is the finite sum over the
  contracted coordinate `k` of `lhs (p, k) · rhs (k, e)`. The product's dimension record enters only through four
  coordinate facts about its operand index maps (each is a one-line computation for a literal record), so the lemma
  serves any such record at any extents.
-/
import Idealize.ShloMosaic.Lib.ValueIdx
import Idealize.ShloMosaic.PureOps.Ideal.Laws

noncomputable section

namespace Cert.LibPlainDot

open Idealize.ShloMosaic Idealize.ShloMosaic.ValueIdx

/-- `[M, K] · [K, N]` into the zero accumulator, at `(p, e)`: `∑ₖ lhs (p, k) · rhs (k, e)`. The hypotheses say that the
    record contracts ONE axis of extent `K`, that the left operand is read at (output row, contracted coordinate) and the
    right operand at (contracted coordinate, output column). -/
theorem matmul_zero_apply {M K N : ℕ} {φ₁ φ₂ : FTy}
    (D : DotDims ⟨2, ![M, K]⟩ ⟨2, ![K, N]⟩ ⟨2, ![M, N]⟩) (hr : D.contr.rank = 1)
    (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (lhs : FVec Ideal ⟨2, ![M, K]⟩ φ₁) (rhs : FVec Ideal ⟨2, ![K, N]⟩ φ₂) (p : Fin M) (e : Fin N) :
    matmul D none lhs rhs (constant (F := Ideal) ⟨2, ![M, N]⟩ .f32 0x00000000#32) (ix2 p e)
      = ∑ k : Fin K, lhs (ix2 p k) * rhs (ix2 k e) := by
  simp only [matmul]
  rw [Ideal.matmul_constant_zero_apply, ← Equiv.sum_comp (contrEquiv1 D K hr hs).symm]
  refine Finset.sum_congr rfl fun k _ => ?_
  have hk := contrEquiv1_symm_val D K hr hs k
  have el : D.lhsIdx (ix2 p e) ((contrEquiv1 D K hr hs).symm k) = ix2 p k := funext fun a => Fin.ext (by
    match a with
    | ⟨0, _⟩ => exact hl0 _ _
    | ⟨1, _⟩ => exact (hl1 _ _).trans hk)
  have er : D.rhsIdx (ix2 p e) ((contrEquiv1 D K hr hs).symm k) = ix2 k e := funext fun a => Fin.ext (by
    match a with
    | ⟨0, _⟩ => exact (hr0 _ _).trans hk
    | ⟨1, _⟩ => exact hr1 _ _)
  rw [el, er]

end Cert.LibPlainDot

end
-- ==== Proof.Block.lean ====
/-
  What one grid point of the kernel leaves in its output block, entry by entry.

  The body reads a block of 10000 rows of the aggregated features, the same rows of the features and of the degree
  column, and the whole weights; it stores one 10000 × 256 block. Read at row `p` and column `e`, the stored value is
  entry `e` of the specification's result row (`Cert.GcnSpec.outRow`) for the block's row `p`: the two matrix products
  are sums over the 128 contracted entries, the two lane reductions are sums over the row's 256 entries, the column
  casts and broadcasts only move a row's number to every lane, and the rest is entry by entry.
-/
import proofs.«121359_j11914239279898_2_alg».proof.Proof.Gen.KernelIdeal.Frame
import proofs.«121359_j11914239279898_2_alg».proof.Proof.Spec
import proofs.«121359_j11914239279898_2_alg».proof.Proof.LibColumn
import proofs.«121359_j11914239279898_2_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Block

open Cert.KernelIdeal Cert.KernelIdeal.Gen Idealize.ShloMosaic Idealize.ShloMosaic.ValueIdx Cert.GcnSpec

/-- The block product's dimension record: 10000 × 128 against 128 × 256. -/
abbrev D := dot_S10000x128_S128x256_S10000x256_1_0_0_1_n_n

/-! ## The product's operand indices -/

theorem lhs0 (i : S10000x256.Idx) (q : D.contr.Idx) : (D.lhsIdx i q 0).val = (i 0).val := by
  unfold DotDims.lhsIdx
  rw [dif_neg (show ¬(0 : Fin S10000x128.rank) ∈ D.lhsBatch by decide), dif_pos (show (0 : Fin S10000x128.rank) ∈ D.lhsNonContracting by decide)]
  rfl
theorem lhs1 (i : S10000x256.Idx) (q : D.contr.Idx) : (D.lhsIdx i q 1).val = (q ⟨0, by decide⟩).val :=
  D.lhsIdx_val_of_single rfl i q
theorem rhs0 (i : S10000x256.Idx) (q : D.contr.Idx) : (D.rhsIdx i q 0).val = (q ⟨0, by decide⟩).val :=
  D.rhsIdx_val_of_single rfl i q
theorem rhs1 (i : S10000x256.Idx) (q : D.contr.Idx) : (D.rhsIdx i q 1).val = (i 1).val := by
  unfold DotDims.rhsIdx
  rw [dif_neg (show ¬(1 : Fin S128x256.rank) ∈ D.rhsBatch by decide), dif_pos (show (1 : Fin S128x256.rank) ∈ D.rhsNonContracting by decide)]
  rfl

/-- The block product into the zero block, at row `p` and column `e`: the sum over the 128 contracted entries
    (whatever precision the product asks for: an exact product has none to choose). -/
theorem dot_apply (prec : Option ContractPrecision) (lhs : FVec Ideal S10000x128 .f32) (rhs : FVec Ideal S128x256 .f32)
    (p : Fin 10000) (e : Fin 256) :
    matmul D prec lhs rhs (constant (F := Ideal) S10000x256 .f32 0x00000000#32) (ix2 p e)
      = ∑ k : Fin 128, lhs (ix2 p k) * rhs (ix2 k e) :=
  Cert.LibPlainDot.matmul_zero_apply D rfl rfl lhs0 lhs1 rhs0 rhs1 lhs rhs p e

/-! ## The layout operations and the lane sum, at an index -/

/-- The lane sum of a 10000 × 256 block at row `p` is the sum of the row's 256 entries. -/
theorem rowSum_apply (g : FVec Ideal S10000x256 .f32) (p : Fin 10000) :
    multiReduction .add [1] S10000 g 0x00000000#32 reduces_S10000x256_S10000 (.inl rfl) rfl (ix1 p)
      = ∑ e : Fin 256, g (ix2 p e) := by
  refine (Ideal.multiReduction_add_single g 0x00000000#32 reduces_S10000x256_S10000 (.inl rfl) rfl (ix1 p)).trans ?_
  refine Finset.sum_congr rfl fun k _ => ?_
  exact congrArg g (funext fun a => Fin.ext (by match a with | ⟨0, _⟩ => rfl | ⟨1, _⟩ => rfl))

theorem col_apply (v : FVec Ideal S10000 .f32) (p : Fin 10000) :
    shapeCast S10000x1 v shapeCasts_S10000_S10000x1 (ix2 p (0 : Fin 1)) = v (ix1 p) :=
  Cert.LibColumn.shapeCast_a_a1_apply v _ p 0

theorem bcol256_apply (v : FVec Ideal S10000x1 .f32) (p : Fin 10000) (e : Fin 256) :
    broadcastTo S10000x256 v broadcasts_S10000x1_S10000x256 (ix2 p e) = v (ix2 p (0 : Fin 1)) :=
  Cert.LibColumn.broadcastTo_a1_ab_apply v _ p e

theorem bcol128_apply (v : FVec Ideal S10000x1 .f32) (p : Fin 10000) (k : Fin 128) :
    broadcastTo S10000x128 v broadcasts_S10000x1_S10000x128 (ix2 p k) = v (ix2 p (0 : Fin 1)) :=
  Cert.LibColumn.broadcastTo_a1_ab_apply v _ p k

theorem brow_apply (v : FVec Ideal S1x256 .f32) (p : Fin 10000) (e : Fin 256) :
    broadcastTo S10000x256 v broadcasts_S1x256_S10000x256 (ix2 p e) = v (ix2 (0 : Fin 1) e) :=
  broadcastTo_1b_ab_apply v _ p e

/-! ## The body's stages -/

/-- The affine stage: the degree-scaled aggregated rows against the weights, plus the bias row. -/
def gcnBlk (x0 : FVec Ideal S10000x128 .f32) (x2 : FVec Ideal S10000x1 .f32) (x3 : FVec Ideal S128x256 .f32)
    (x4 : FVec Ideal S1x256 .f32) : FVec Ideal S10000x256 .f32 :=
  addf (matmul D (some .fp32)
      (mulf (shapeCast S10000x128 x0 shapeCasts_S10000x128_S10000x128)
        (broadcastTo S10000x128 (shapeCast S10000x1 x2 shapeCasts_S10000x1_S10000x1) broadcasts_S10000x1_S10000x128))
      x3 (constant S10000x256 .f32 0x00000000#32))
    (broadcastTo S10000x256 (shapeCast S1x256 x4 shapeCasts_S1x256_S1x256) broadcasts_S1x256_S10000x256)

/-- The column of row means of a block: the lane sums kept as a column, divided by 256. -/
def meanCol (g : FVec Ideal S10000x256 .f32) : FVec Ideal S10000x1 .f32 :=
  divf (shapeCast S10000x1 (multiReduction .add [1] S10000 g 0x00000000#32 reduces_S10000x256_S10000 (.inl rfl) rfl)
      shapeCasts_S10000_S10000x1)
    (broadcast S10000x1 (Scalar.ofBits (F := Ideal) .f32 0x43800000#32))

/-- A block with its row means taken off. -/
def centredBlk (g : FVec Ideal S10000x256 .f32) : FVec Ideal S10000x256 .f32 :=
  subf g (broadcastTo S10000x256 (meanCol g) broadcasts_S10000x1_S10000x256)

/-- The normalisation stage. -/
def lnBlk (g : FVec Ideal S10000x256 .f32) (x5 x6 : FVec Ideal S1x256 .f32) : FVec Ideal S10000x256 .f32 :=
  addf (mulf (mulf (centredBlk g)
        (broadcastTo S10000x256
          (rsqrt (addf (meanCol (mulf (centredBlk g) (centredBlk g)))
            (broadcast S10000x1 (Scalar.ofBits (F := Ideal) .f32 0x3727C5AC#32))))
          broadcasts_S10000x1_S10000x256))
      (broadcastTo S10000x256 (shapeCast S1x256 x5 shapeCasts_S1x256_S1x256) broadcasts_S1x256_S10000x256))
    (broadcastTo S10000x256 (shapeCast S1x256 x6 shapeCasts_S1x256_S1x256) broadcasts_S1x256_S10000x256)

/-- The last stage: the clip at zero, and the features' own affine map added. -/
def outBlk (x1 : FVec Ideal S10000x128 .f32) (ln : FVec Ideal S10000x256 .f32) (x7 : FVec Ideal S128x256 .f32)
    (x8 : FVec Ideal S1x256 .f32) : FVec Ideal S10000x256 .f32 :=
  addf (maximumf ln (broadcast S10000x256 (Scalar.ofBits (F := Ideal) .f32 0x00000000#32)))
    (addf (matmul D (some .fp32) x1 x7 (constant S10000x256 .f32 0x00000000#32))
      (broadcastTo S10000x256 (shapeCast S1x256 x8 shapeCasts_S1x256_S1x256) broadcasts_S1x256_S10000x256))

/-- The body's two payloads are these stages composed. -/
theorem pay2_eq (x0 : Vec Ideal S10000x128 .f32) (x2 : Vec Ideal S10000x1 .f32) (x3 : Vec Ideal S128x256 .f32)
    (x4 x5 x6 : Vec Ideal S1x256 .f32) :
    k0_pay2 (F := Ideal) x0 x2 x3 x4 x5 x6 = lnBlk (gcnBlk x0 x2 x3 x4) x5 x6 := rfl

theorem pay1_eq (x1 : Vec Ideal S10000x128 .f32) (ln : FVec Ideal S10000x256 .f32) (x7 : Vec Ideal S128x256 .f32)
    (x8 : Vec Ideal S1x256 .f32) :
    k0_pay1 (F := Ideal) x1 ln x7 x8 = outBlk x1 ln x7 x8 := rfl

/-! ## Each stage at an index -/

theorem gcnBlk_apply (x0 : FVec Ideal S10000x128 .f32) (x2 : FVec Ideal S10000x1 .f32) (x3 : FVec Ideal S128x256 .f32)
    (x4 : FVec Ideal S1x256 .f32) (p : Fin 10000) (e : Fin 256) :
    gcnBlk x0 x2 x3 x4 (ix2 p e)
      = affine (fun k => x0 (ix2 p k) * x2 (ix2 p (0 : Fin 1))) (fun k e => x3 (ix2 k e)) (fun e => x4 (ix2 (0 : Fin 1) e)) e := by
  unfold gcnBlk affine
  rw [addf_apply, dot_apply, brow_apply]
  simp only [shapeCast_self, mulf_apply, bcol128_apply]

theorem meanCol_apply (g : FVec Ideal S10000x256 .f32) (p : Fin 10000) :
    meanCol g (ix2 p (0 : Fin 1)) = mean (fun e => g (ix2 p e)) := by
  unfold meanCol mean
  rw [divf_apply, col_apply, rowSum_apply]
  rfl

theorem centredBlk_apply (g : FVec Ideal S10000x256 .f32) (p : Fin 10000) (e : Fin 256) :
    centredBlk g (ix2 p e) = centred (fun e' => g (ix2 p e')) e := by
  unfold centredBlk centred
  rw [subf_apply, bcol256_apply, meanCol_apply]

theorem lnBlk_apply (g : FVec Ideal S10000x256 .f32) (x5 x6 : FVec Ideal S1x256 .f32) (p : Fin 10000) (e : Fin 256) :
    lnBlk g x5 x6 (ix2 p e)
      = layerNorm (fun e' => g (ix2 p e')) (fun e' => x5 (ix2 (0 : Fin 1) e')) (fun e' => x6 (ix2 (0 : Fin 1) e')) e := by
  unfold lnBlk layerNorm
  rw [addf_apply, mulf_apply, mulf_apply, centredBlk_apply, bcol256_apply, brow_apply, shapeCast_self, brow_apply, shapeCast_self]
  show _ * Ideal.rsqrt (meanCol (mulf (centredBlk g) (centredBlk g)) (ix2 p (0 : Fin 1)) + wEps) * _ + _ = _
  rw [meanCol_apply]
  simp only [mulf_apply, centredBlk_apply]

theorem outBlk_apply (x1 : FVec Ideal S10000x128 .f32) (ln : FVec Ideal S10000x256 .f32) (x7 : FVec Ideal S128x256 .f32)
    (x8 : FVec Ideal S1x256 .f32) (p : Fin 10000) (e : Fin 256) :
    outBlk x1 ln x7 x8 (ix2 p e)
      = max (ln (ix2 p e)) w0 + affine (fun k => x1 (ix2 p k)) (fun k e => x7 (ix2 k e)) (fun e => x8 (ix2 (0 : Fin 1) e)) e := by
  unfold outBlk affine
  rw [addf_apply, addf_apply, dot_apply, brow_apply, shapeCast_self]
  rfl

/-! ## The block -/

theorem hz : (![0, 0] : Fin 2 → Nat) = fun _ => 0 := funext fun a => by fin_cases a <;> rfl

/-- WHAT THE BODY STORES, at row `p` and column `e` of the block: entry `e` of the result row of the block's row `p`. -/
theorem out_apply (x0 x1 : Vec Ideal S10000x128 .f32) (x2 : Vec Ideal S10000x1 .f32) (x3 : Vec Ideal S128x256 .f32)
    (x4 x5 x6 : Vec Ideal S1x256 .f32) (x7 : Vec Ideal S128x256 .f32) (x8 : Vec Ideal S1x256 .f32)
    (p : Fin 10000) (e : Fin 256) :
    out0_9 (F := Ideal) x0 x1 x2 x3 x4 x5 x6 x7 x8 (ix2 p e)
      = outRow (fun k => x0 (ix2 p k)) (x2 (ix2 p (0 : Fin 1))) (fun k => x1 (ix2 p k))
          (fun k e => x3 (ix2 k e)) (fun k e => x7 (ix2 k e))
          (fun e => x4 (ix2 (0 : Fin 1) e)) (fun e => x5 (ix2 (0 : Fin 1) e)) (fun e => x6 (ix2 (0 : Fin 1) e))
          (fun e => x8 (ix2 (0 : Fin 1) e)) e := by
  unfold out0_9
  rw [View.canon_unit_zero hz]
  simp only [View.ld_unit_zero (S := S10000x128) hz, View.ld_unit_zero (S := S10000x1) hz,
    View.ld_unit_zero (S := S128x256) hz, View.ld_unit_zero (S := S1x256) hz]
  rw [pay2_eq, pay1_eq, outBlk_apply, lnBlk_apply]
  unfold outRow
  simp only [gcnBlk_apply]

end Cert.KernelIdeal.Block

end
-- ==== Proof.KernelValue.lean ====
/-
  From the blocks to the whole array.

  The grid has ten points; point `t` reads rows 10000·t … 10000·t + 9999 of the aggregated features, of the features
  and of the degree column, reads the weights whole, and writes back rows 10000·t … 10000·t + 9999 of the result. What
  it writes at row `p` of its block is the specification's result row of node 10000·t + p (the block lemma), which
  is the specification's whole array read at that node: every point's block is a block of ONE array. The ten blocks
  tile the 100000 rows (row `r` is in block r / 10000), so after the run the result array is that array.
-/
import proofs.«121359_j11914239279898_2_alg».proof.Proof.Gen.KernelIdeal.Frame
import proofs.«121359_j11914239279898_2_alg».proof.Proof.Gen.KernelIdeal.Value
import proofs.«121359_j11914239279898_2_alg».proof.Proof.Block
import proofs.«121359_j11914239279898_2_alg».proof.Proof.Spec
import Idealize.ShloMosaic.Lib.Pipeline.Value
import Idealize.ShloMosaic.Lib.ValueIdx

noncomputable section

namespace Cert.KernelIdeal.Whole

open Cert.KernelIdeal Cert.KernelIdeal.Gen Idealize.ShloMosaic Idealize.ShloMosaic.TcCoe Idealize.SL.Sem
open Idealize.ShloMosaic.ValueIdx Cert.GcnSpec
open Idealize.ShloMosaic.Pipeline (Dat)

variable (m : (ℓ : Loc nD τ sig) → Buf (Elt Ideal) ℓ) (ρ : Dev nD → PrngReg)

/-- Row `p` of point `t`'s block is node 10000·t + p. -/
def rowAt (t : Fin cfg0.N) (p : Fin 10000) : Fin 100000 :=
  ⟨10000 * t.val + p.val, by have := t.isLt; have hN : cfg0.N = 10 := N_0; have := p.isLt; omega⟩

/-- A 100000 × 1 column read as a vector, and a 1 × 256 matrix read as a vector. -/
def colVec (v : S100000x1.Idx → EReal) : (⟨1, ![100000]⟩ : Shape).Idx → EReal :=
  fun j => v (ix2 (⟨(j 0).val, (j 0).isLt⟩ : Fin 100000) (0 : Fin 1))
def rowVec (v : S1x256.Idx → EReal) : (⟨1, ![256]⟩ : Shape).Idx → EReal :=
  fun j => v (ix2 (0 : Fin 1) (⟨(j 0).val, (j 0).isLt⟩ : Fin 256))

theorem colVec_apply (v : S100000x1.Idx → EReal) (r : Fin 100000) : colVec v (ix1 r) = v (ix2 r (0 : Fin 1)) := rfl
theorem rowVec_apply (v : S1x256.Idx → EReal) (e : Fin 256) : rowVec v (ix1 e) = v (ix2 (0 : Fin 1) e) := rfl

/-! ## The printed index maps, decided over the ten points: the three row windows and the result move with the point,
    the weights stay -/

theorem idx_facts0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx_facts1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)
theorem idx_facts2 : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)
theorem idx_facts9 : ∀ t : Fin cfg0.N, win0_9.index t (0 : Fin 2) = t.val ∧ win0_9.index t (1 : Fin 2) = 0 :=
  (by decide +kernel : ∀ t : Fin grid0.N, win0_9.index t (0 : Fin 2) = t.val ∧ win0_9.index t (1 : Fin 2) = 0)
theorem idx_facts3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
theorem idx_facts4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)
theorem idx_facts5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)
theorem idx_facts6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)
theorem idx_facts7 : ∀ t : Fin cfg0.N, win0_7.index t (0 : Fin 2) = 0 ∧ win0_7.index t (1 : Fin 2) = 0 :=
  (by decide +kernel : ∀ t : Fin grid0.N, win0_7.index t (0 : Fin 2) = 0 ∧ win0_7.index t (1 : Fin 2) = 0)
theorem idx_facts8 : ∀ t : Fin cfg0.N, win0_8.index t (0 : Fin 2) = 0 ∧ win0_8.index t (1 : Fin 2) = 0 :=
  (by decide +kernel : ∀ t : Fin grid0.N, win0_8.index t (0 : Fin 2) = 0 ∧ win0_8.index t (1 : Fin 2) = 0)

/-! ## Each window's block at a point, read at an index -/

theorem iblk0_apply (c : Dev nD) (t : Fin cfg0.N) (p : Fin 10000) (k : Fin 128) :
    (iblk m c 0 t : Vec Ideal S10000x128 .f32) (ix2 p k) = (V m c main_v25 : S100000x128.Idx → EReal) (ix2 (rowAt t p) k) := by
  obtain ⟨h0, h1⟩ := idx_facts0 t
  unfold iblk
  rw [View.read_apply, cast_eq]
  refine congrArg (V m c main_v25) (funext fun a => Fin.ext ?_)
  match a with
  | ⟨0, _⟩ => show win0_0.index t (0 : Fin 2) * 10000 + 1 * p.val = 10000 * t.val + p.val; rw [h0]; omega
  | ⟨1, _⟩ => show win0_0.index t (1 : Fin 2) * 128 + 1 * k.val = k.val; rw [h1]; omega
theorem iblk1_apply (c : Dev nD) (t : Fin cfg0.N) (p : Fin 10000) (k : Fin 128) :
    (iblk m c 1 t : Vec Ideal S10000x128 .f32) (ix2 p k) = (V m c main_arg0 : S100000x128.Idx → EReal) (ix2 (rowAt t p) k) := by
  obtain ⟨h0, h1⟩ := idx_facts1 t
  unfold iblk
  rw [View.read_apply, cast_eq]
  refine congrArg (V m c main_arg0) (funext fun a => Fin.ext ?_)
  match a with
  | ⟨0, _⟩ => show win0_1.index t (0 : Fin 2) * 10000 + 1 * p.val = 10000 * t.val + p.val; rw [h0]; omega
  | ⟨1, _⟩ => show win0_1.index t (1 : Fin 2) * 128 + 1 * k.val = k.val; rw [h1]; omega
theorem iblk2_apply (c : Dev nD) (t : Fin cfg0.N) (p : Fin 10000) :
    (iblk m c 2 t : Vec Ideal S10000x1 .f32) (ix2 p (0 : Fin 1)) = (V m c main_v26 : S100000x1.Idx → EReal) (ix2 (rowAt t p) (0 : Fin 1)) := by
  obtain ⟨h0, h1⟩ := idx_facts2 t
  unfold iblk
  rw [View.read_apply, cast_eq]
  refine congrArg (V m c main_v26) (funext fun a => Fin.ext ?_)
  match a with
  | ⟨0, _⟩ => show win0_2.index t (0 : Fin 2) * 10000 + 1 * p.val = 10000 * t.val + p.val; rw [h0]; omega
  | ⟨1, _⟩ => show win0_2.index t (1 : Fin 2) * 1 + 1 * (0 : Fin 1).val = (0 : Fin 1).val; rw [h1]; omega
theorem iblk3_apply (c : Dev nD) (t : Fin cfg0.N) (k : Fin 128) (e : Fin 256) :
    (iblk m c 3 t : Vec Ideal S128x256 .f32) (ix2 k e) = (V m c main_arg3 : S128x256.Idx → EReal) (ix2 k e) := by
  obtain ⟨h0, h1⟩ := idx_facts3 t
  unfold iblk
  rw [View.read_apply, cast_eq]
  refine congrArg (V m c main_arg3) (funext fun a => Fin.ext ?_)
  match a with
  | ⟨0, _⟩ => show win0_3.index t (0 : Fin 2) * 128 + 1 * k.val = k.val; rw [h0]; omega
  | ⟨1, _⟩ => show win0_3.index t (1 : Fin 2) * 256 + 1 * e.val = e.val; rw [h1]; omega
theorem iblk7_apply (c : Dev nD) (t : Fin cfg0.N) (k : Fin 128) (e : Fin 256) :
    (iblk m c 7 t : Vec Ideal S128x256 .f32) (ix2 k e) = (V m c main_arg7 : S128x256.Idx → EReal) (ix2 k e) := by
  obtain ⟨h0, h1⟩ := idx_facts7 t
  unfold iblk
  rw [View.read_apply, cast_eq]
  refine congrArg (V m c main_arg7) (funext fun a => Fin.ext ?_)
  match a with
  | ⟨0, _⟩ => show win0_7.index t (0 : Fin 2) * 128 + 1 * k.val = k.val; rw [h0]; omega
  | ⟨1, _⟩ => show win0_7.index t (1 : Fin 2) * 256 + 1 * e.val = e.val; rw [h1]; omega
theorem iblk4_apply (c : Dev nD) (t : Fin cfg0.N) (e : Fin 256) :
    (iblk m c 4 t : Vec Ideal S1x256 .f32) (ix2 (0 : Fin 1) e) = (V m c main_v27 : S1x256.Idx → EReal) (ix2 (0 : Fin 1) e) := by
  obtain ⟨h0, h1⟩ := idx_facts4 t
  unfold iblk
  rw [View.read_apply, cast_eq]
  refine congrArg (V m c main_v27) (funext fun a => Fin.ext ?_)
  match a with
  | ⟨0, _⟩ => show win0_4.index t (0 : Fin 2) * 1 + 1 * (0 : Fin 1).val = (0 : Fin 1).val; rw [h0]; omega
  | ⟨1, _⟩ => show win0_4.index t (1 : Fin 2) * 256 + 1 * e.val = e.val; rw [h1]; omega
theorem iblk5_apply (c : Dev nD) (t : Fin cfg0.N) (e : Fin 256) :
    (iblk m c 5 t : Vec Ideal S1x256 .f32) (ix2 (0 : Fin 1) e) = (V m c main_v28 : S1x256.Idx → EReal) (ix2 (0 : Fin 1) e) := by
  obtain ⟨h0, h1⟩ := idx_facts5 t
  unfold iblk
  rw [View.read_apply, cast_eq]
  refine congrArg (V m c main_v28) (funext fun a => Fin.ext ?_)
  match a with
  | ⟨0, _⟩ => show win0_5.index t (0 : Fin 2) * 1 + 1 * (0 : Fin 1).val = (0 : Fin 1).val; rw [h0]; omega
  | ⟨1, _⟩ => show win0_5.index t (1 : Fin 2) * 256 + 1 * e.val = e.val; rw [h1]; omega
theorem iblk6_apply (c : Dev nD) (t : Fin cfg0.N) (e : Fin 256) :
    (iblk m c 6 t : Vec Ideal S1x256 .f32) (ix2 (0 : Fin 1) e) = (V m c main_v29 : S1x256.Idx → EReal) (ix2 (0 : Fin 1) e) := by
  obtain ⟨h0, h1⟩ := idx_facts6 t
  unfold iblk
  rw [View.read_apply, cast_eq]
  refine congrArg (V m c main_v29) (funext fun a => Fin.ext ?_)
  match a with
  | ⟨0, _⟩ => show win0_6.index t (0 : Fin 2) * 1 + 1 * (0 : Fin 1).val = (0 : Fin 1).val; rw [h0]; omega
  | ⟨1, _⟩ => show win0_6.index t (1 : Fin 2) * 256 + 1 * e.val = e.val; rw [h1]; omega
theorem iblk8_apply (c : Dev nD) (t : Fin cfg0.N) (e : Fin 256) :
    (iblk m c 8 t : Vec Ideal S1x256 .f32) (ix2 (0 : Fin 1) e) = (V m c main_v30 : S1x256.Idx → EReal) (ix2 (0 : Fin 1) e) := by
  obtain ⟨h0, h1⟩ := idx_facts8 t
  unfold iblk
  rw [View.read_apply, cast_eq]
  refine congrArg (V m c main_v30) (funext fun a => Fin.ext ?_)
  match a with
  | ⟨0, _⟩ => show win0_8.index t (0 : Fin 2) * 1 + 1 * (0 : Fin 1).val = (0 : Fin 1).val; rw [h0]; omega
  | ⟨1, _⟩ => show win0_8.index t (1 : Fin 2) * 256 + 1 * e.val = e.val; rw [h1]; omega

/-- Where row `p`, column `e` of point `t`'s result block sits in the result array. -/
theorem emb9_apply (t : Fin cfg0.N) (p : Fin 10000) (e : Fin 256) :
    (((cfg0.win 9).blk t).view.emb (ix2 p e) : S100000x256.Idx) = ix2 (rowAt t p) e := by
  obtain ⟨h0, h1⟩ := idx_facts9 t
  refine funext fun a => Fin.ext ?_
  match a with
  | ⟨0, _⟩ => show win0_9.index t (0 : Fin 2) * 10000 + 1 * p.val = 10000 * t.val + p.val; rw [h0]; omega
  | ⟨1, _⟩ => show win0_9.index t (1 : Fin 2) * 256 + 1 * e.val = e.val; rw [h1]; omega

/-! ## The whole array -/

/-- What the result array ends holding: the specification's array of the arrays the grid reads. -/
def whole (c : Dev nD) : S100000x256.Idx → EReal :=
  result (V m c main_v25) (V m c main_arg0) (colVec (V m c main_v26)) (V m c main_arg3) (V m c main_arg7)
    (rowVec (V m c main_v27)) (rowVec (V m c main_v28)) (rowVec (V m c main_v29)) (rowVec (V m c main_v30))

/-- WHAT POINT `t` WRITES BACK is block `t` of that array. -/
theorem flushed_eq (c : Dev nD) (t : Fin cfg0.N) :
    (dats m 0 c).flushed 9 t = ((cfg0.win 9).blk t).view.read (Elt Ideal) (whole m c) := by
  show (cfg0.win 9).cut (grid0.coords t) ((dats m 0 c).after 9 t) = _
  rw [after0_9]
  funext j
  obtain ⟨p, e, rfl⟩ : ∃ (p : Fin 10000) (e : Fin 256), j = ix2 p e := ⟨j 0, j 1, eq_ix2 j⟩
  rw [View.read_apply, cast_eq, emb9_apply]
  show out0_9 (iblk m c 0 t) (iblk m c 1 t) (iblk m c 2 t) (iblk m c 3 t) (iblk m c 4 t) (iblk m c 5 t) (iblk m c 6 t)
      (iblk m c 7 t) (iblk m c 8 t) (ix2 p e) = _
  refine (Cert.KernelIdeal.Block.out_apply (iblk m c 0 t) (iblk m c 1 t) (iblk m c 2 t) (iblk m c 3 t) (iblk m c 4 t)
    (iblk m c 5 t) (iblk m c 6 t) (iblk m c 7 t) (iblk m c 8 t) p e).trans ?_
  unfold whole
  rw [result_apply]
  simp only [iblk0_apply, iblk1_apply, iblk2_apply, iblk3_apply, iblk4_apply, iblk5_apply, iblk6_apply, iblk7_apply,
    iblk8_apply, colVec_apply, rowVec_apply]

/-- An index of the array is in point `t`'s block iff each coordinate is in the block's range on its axis. -/
theorem mem_blk (t : Fin cfg0.N) (i : S100000x256.Idx) :
    i ∈ ((cfg0.win 9).blk t).view.set ↔ ∀ a : Fin 2, win0_9.index t a * S10000x256.size a ≤ (i a).val ∧ (i a).val < win0_9.index t a * S10000x256.size a + S10000x256.size a := by
  show i ∈ ((View.whole main_v31).slice (win0_9.rect t)).set ↔ _
  rw [View.set_slice_whole, Rect.mem_set_unit]
  exact Iff.rfl

/-- Every index of the result array is in some point's block: row `r` in block r / 10000. -/
theorem cover (i : S100000x256.Idx) :
    ∃ t : Fin cfg0.N, (cfg0.win 9).flush t = true ∧ i ∈ ((cfg0.win 9).blk t).view.set := by
  have hi0 : (i 0).val < 100000 := (i 0).isLt
  have hi1 : (i 1).val < 256 := (i 1).isLt
  have hN : cfg0.N = 10 := N_0
  let t : Fin cfg0.N := ⟨(i 0).val / 10000, by omega⟩
  obtain ⟨h0, h1⟩ := idx_facts9 t
  have ht : t.val = (i 0).val / 10000 := rfl
  refine ⟨t, flush0_9 t, ?_⟩
  rw [mem_blk]
  intro a
  match a with
  | ⟨0, _⟩ => show win0_9.index t (0 : Fin 2) * 10000 ≤ (i 0).val ∧ (i 0).val < win0_9.index t (0 : Fin 2) * 10000 + 10000; rw [h0, ht]; omega
  | ⟨1, _⟩ => show win0_9.index t (1 : Fin 2) * 256 ≤ (i 1).val ∧ (i 1).val < win0_9.index t (1 : Fin 2) * 256 + 256; rw [h1]; omega

/-- THE RESULT ARRAY after the run. -/
theorem final (c : Dev nD) : (dats m 0 c).arrAt 9 cfg0.N = whole m c :=
  (dats m 0 c).arrAt_eq_of_cover 9 (whole m c) (fun t _ => flushed_eq m c t) cover

/-- The frame run re-posted: the result array at the specification's array of what the grid reads, the arguments unchanged. -/
theorem run : θ_run defs (onTc (τ := τ) (main (F := Ideal))) ⟨m, fun _ => 0, ρ⟩ fun r => ∀ c : Dev nD,
      r.2.mem ((c : Thread nD τ).loc main_v31) = whole m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m c), (h c).2⟩)
    (Cert.KernelIdeal.Value.run_blocks m ρ)

end Cert.KernelIdeal.Whole

end
-- ==== Proof.Prelude.lean ====
/-
  What the kernel's program hands to its one grid computation.

  Before the grid starts, the program computes on the host, from the features and the two edge lists: the out- and
  in-degree of every node (a scatter-add of ones), their reciprocal square roots clamped below at degree one, the
  features scaled by the source factor, gathered along the source list and scatter-added along the destination list
  (the aggregated features), and the in-degree factors laid out as a column; and it lays each of the four vectors
  (two biases, scale, shift) out as a one-row matrix.

  The reference computes its aggregated features and its in-degree factors by the same operations in the same order
  with the same float words, so the two are ONE term of the arguments: each array below is stated as the reference's
  stage of that name applied to the kernel program's arguments, and the equation holds by unfolding the names. No
  scatter or gather is ever opened.
-/
import proofs.«121359_j11914239279898_2_alg».proof.Proof.Gen.KernelIdeal.Frame
import proofs.«121359_j11914239279898_2_alg».proof.Proof.Gen.ReferenceIdeal.Read
import Idealize.ShloMosaic.Lib.StableHlo.Run

noncomputable section

namespace Cert.KernelIdeal.Prelude

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ)

set_option maxHeartbeats 1000000 in
/-- The aggregated features the grid reads are the reference's aggregated features of the same arguments. -/
theorem V_agg (c : Dev nD) :
    (V m c main_v25 : S100000x128.Idx → EReal) =
      Cert.ReferenceIdeal.Read.val_main_v25 (F := Ideal) (m ((c : Thread nD τ).loc main_arg0)) (m ((c : Thread nD τ).loc main_arg1)) (m ((c : Thread nD τ).loc main_arg2)) := by
  dsimp only [Gen.V, Gen.hostOps0]
  after_results_simp
  rfl

set_option maxHeartbeats 1000000 in
/-- The column of in-degree factors the grid reads is the reference's vector of in-degree factors, laid out as a column. -/
theorem V_nd (c : Dev nD) :
    (V m c main_v26 : S100000x1.Idx → EReal) =
      shapeCast S100000x1 (Cert.ReferenceIdeal.Read.val_main_v12 (F := Ideal) (m ((c : Thread nD τ).loc main_arg2))) shapeCasts_S100000_S100000x1 := by
  dsimp only [Gen.V, Gen.hostOps0]
  after_results_simp
  rfl

set_option maxHeartbeats 1000000 in
/-- The first bias as a one-row matrix. -/
theorem V_b (c : Dev nD) :
    (V m c main_v27 : S1x256.Idx → EReal) = shapeCast S1x256 (m ((c : Thread nD τ).loc main_arg4)) shapeCasts_S256_S1x256 := by
  dsimp only [Gen.V, Gen.hostOps0]
  after_results_simp
  rfl

set_option maxHeartbeats 1000000 in
/-- The scale as a one-row matrix. -/
theorem V_gamma (c : Dev nD) :
    (V m c main_v28 : S1x256.Idx → EReal) = shapeCast S1x256 (m ((c : Thread nD τ).loc main_arg5)) shapeCasts_S256_S1x256 := by
  dsimp only [Gen.V, Gen.hostOps0]
  after_results_simp
  rfl

set_option maxHeartbeats 1000000 in
/-- The shift as a one-row matrix. -/
theorem V_beta (c : Dev nD) :
    (V m c main_v29 : S1x256.Idx → EReal) = shapeCast S1x256 (m ((c : Thread nD τ).loc main_arg6)) shapeCasts_S256_S1x256 := by
  dsimp only [Gen.V, Gen.hostOps0]
  after_results_simp
  rfl

set_option maxHeartbeats 1000000 in
/-- The second bias as a one-row matrix. -/
theorem V_skipb (c : Dev nD) :
    (V m c main_v30 : S1x256.Idx → EReal) = shapeCast S1x256 (m ((c : Thread nD τ).loc main_arg8)) shapeCasts_S256_S1x256 := by
  dsimp only [Gen.V, Gen.hostOps0]
  after_results_simp
  rfl

end Cert.KernelIdeal.Prelude

end
-- ==== Proof.RefValue.lean ====
/-
  The reference's result, entry by entry.

  The reference computes the same block for all 100000 nodes at once with whole-array operations. Read at node `r` and
  entry `e`, its last stage is entry `e` of the specification's result row (`Cert.GcnSpec.outRow`) of node `r`: the two
  matrix products are sums over the 128 contracted entries, the two row sums are the zero word plus a sum over the row's
  256 entries (the zero word is the number zero), the quotients by 256 and the reciprocal square root are the same
  functions the specification names, and every broadcast reads a row's number, or a weight's entry, where the
  specification reads it. The aggregated features and the degree factors are left as the stages that compute them: the
  kernel's program computes them by the same operations.
-/
import proofs.«121359_j11914239279898_2_alg».proof.Proof.Gen.ReferenceIdeal.Read
import proofs.«121359_j11914239279898_2_alg».proof.Proof.Spec
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx Cert.GcnSpec

/-! ## The stages' index functions at indices built from their coordinates -/

theorem lidx29 (r : Fin 100000) (e : Fin 256) (k : Fin 128) : lidx_main_v29 (ix2 r e) k = ix2 r k :=
  funext fun a => Fin.ext (by match a with | ⟨0, _⟩ => rfl | ⟨1, _⟩ => rfl)
theorem ridx29 (r : Fin 100000) (e : Fin 256) (k : Fin 128) : ridx_main_v29 (ix2 r e) k = ix2 k e :=
  funext fun a => Fin.ext (by match a with | ⟨0, _⟩ => rfl | ⟨1, _⟩ => rfl)
theorem lidx58 (r : Fin 100000) (e : Fin 256) (k : Fin 128) : lidx_main_v58 (ix2 r e) k = ix2 r k :=
  funext fun a => Fin.ext (by match a with | ⟨0, _⟩ => rfl | ⟨1, _⟩ => rfl)
theorem ridx58 (r : Fin 100000) (e : Fin 256) (k : Fin 128) : ridx_main_v58 (ix2 r e) k = ix2 k e :=
  funext fun a => Fin.ext (by match a with | ⟨0, _⟩ => rfl | ⟨1, _⟩ => rfl)
theorem i27 (r : Fin 100000) (k : Fin 128) : idx_main_v27 (ix2 r k) = ix2 r (0 : Fin 1) :=
  funext fun a => Fin.ext (by match a with | ⟨0, _⟩ => rfl | ⟨1, _⟩ => rfl)
theorem i26 (r : Fin 100000) : idx_main_v26 (ix2 r (0 : Fin 1)) = ix1 r :=
  funext fun a => Fin.ext (by match a with | ⟨0, _⟩ => rfl)
theorem i31 (r : Fin 100000) (e : Fin 256) : idx_main_v31 (ix2 r e) = ix2 (0 : Fin 1) e :=
  funext fun a => Fin.ext (by match a with | ⟨0, _⟩ => rfl | ⟨1, _⟩ => rfl)
theorem i30 (e : Fin 256) : idx_main_v30 (ix2 (0 : Fin 1) e) = ix1 e :=
  funext fun a => Fin.ext (by match a with | ⟨0, _⟩ => rfl)
theorem i33 (r : Fin 100000) (k : Fin 256) : idx_main_v33 (ix1 r) k = ix2 r k :=
  funext fun a => Fin.ext (by match a with | ⟨0, _⟩ => rfl | ⟨1, _⟩ => rfl)
theorem i34 (r : Fin 100000) : idx_main_v34 (ix2 r (0 : Fin 1)) = ix1 r :=
  funext fun a => Fin.ext (by match a with | ⟨0, _⟩ => rfl)
theorem i37 (r : Fin 100000) (e : Fin 256) : idx_main_v37 (ix2 r e) = ix2 r (0 : Fin 1) :=
  funext fun a => Fin.ext (by match a with | ⟨0, _⟩ => rfl | ⟨1, _⟩ => rfl)
theorem i40 (r : Fin 100000) (k : Fin 256) : idx_main_v40 (ix1 r) k = ix2 r k :=
  funext fun a => Fin.ext (by match a with | ⟨0, _⟩ => rfl | ⟨1, _⟩ => rfl)
theorem i41 (r : Fin 100000) : idx_main_v41 (ix2 r (0 : Fin 1)) = ix1 r :=
  funext fun a => Fin.ext (by match a with | ⟨0, _⟩ => rfl)
theorem i44 (r : Fin 100000) (e : Fin 256) : idx_main_v44 (ix2 r e) = ix2 r (0 : Fin 1) :=
  funext fun a => Fin.ext (by match a with | ⟨0, _⟩ => rfl | ⟨1, _⟩ => rfl)
theorem i49 (r : Fin 100000) (e : Fin 256) : idx_main_v49 (ix2 r e) = ix2 r (0 : Fin 1) :=
  funext fun a => Fin.ext (by match a with | ⟨0, _⟩ => rfl | ⟨1, _⟩ => rfl)
theorem i52 (r : Fin 100000) (e : Fin 256) : idx_main_v52 (ix2 r e) = ix2 (0 : Fin 1) e :=
  funext fun a => Fin.ext (by match a with | ⟨0, _⟩ => rfl | ⟨1, _⟩ => rfl)
theorem i51 (e : Fin 256) : idx_main_v51 (ix2 (0 : Fin 1) e) = ix1 e :=
  funext fun a => Fin.ext (by match a with | ⟨0, _⟩ => rfl)
theorem i55 (r : Fin 100000) (e : Fin 256) : idx_main_v55 (ix2 r e) = ix2 (0 : Fin 1) e :=
  funext fun a => Fin.ext (by match a with | ⟨0, _⟩ => rfl | ⟨1, _⟩ => rfl)
theorem i54 (e : Fin 256) : idx_main_v54 (ix2 (0 : Fin 1) e) = ix1 e :=
  funext fun a => Fin.ext (by match a with | ⟨0, _⟩ => rfl)
theorem i60 (r : Fin 100000) (e : Fin 256) : idx_main_v60 (ix2 r e) = ix2 (0 : Fin 1) e :=
  funext fun a => Fin.ext (by match a with | ⟨0, _⟩ => rfl | ⟨1, _⟩ => rfl)
theorem i59 (e : Fin 256) : idx_main_v59 (ix2 (0 : Fin 1) e) = ix1 e :=
  funext fun a => Fin.ext (by match a with | ⟨0, _⟩ => rfl)

/-! ## The stages at an index -/

variable (x0 : (⟨S100000x128, .f32⟩ : BufTy).Contents (Elt Ideal)) (x1 x2 : (⟨S1600000, .i32⟩ : BufTy).Contents (Elt Ideal))
  (x3 x7 : (⟨S128x256, .f32⟩ : BufTy).Contents (Elt Ideal)) (x4 x5 x6 x8 : (⟨S256, .f32⟩ : BufTy).Contents (Elt Ideal))

/-- The affine stage at (r, e): the degree-scaled aggregated row of node `r` against column `e` of the weights, plus
    the bias's entry `e`. -/
theorem v32_at (r : Fin 100000) (e : Fin 256) :
    val_main_v32 (F := Ideal) x0 x1 x2 x3 x4 (ix2 r e)
      = affine (fun k => val_main_v25 (F := Ideal) x0 x1 x2 (ix2 r k) * val_main_v12 (F := Ideal) x2 (ix1 r))
          (fun k e => x3 (ix2 k e)) (fun e => x4 (ix1 e)) e := by
  rw [val_main_v32_apply, val_main_v29_apply, val_main_v31_apply, val_main_v30_apply, i31, i30]
  unfold affine
  refine congrArg (fun s : EReal => s + x4 (ix1 e)) (Finset.sum_congr rfl fun k _ => ?_)
  rw [lidx29, ridx29, val_main_v28_apply, val_main_v27_apply, val_main_v26_apply, i27, i26]
  rfl

/-- The column of row means at row `r`: the mean of the affine stage's row. -/
theorem v36_at (r : Fin 100000) :
    val_main_v36 (F := Ideal) x0 x1 x2 x3 x4 (ix2 r (0 : Fin 1))
      = mean (fun e => val_main_v32 (F := Ideal) x0 x1 x2 x3 x4 (ix2 r e)) := by
  rw [val_main_v36_apply, val_main_v34_apply, val_main_v35_apply, val_main_cst_7_apply, i34, val_main_v33_apply,
    val_main_cst_6_apply]
  unfold mean
  simp only [Ideal.ofBits_def, Ideal.hostDivf_def]
  rw [Ideal.ofBits_zero_f32, zero_add]
  refine congrArg (fun s : EReal => Ideal.div s w256) (Finset.sum_congr rfl fun k _ => ?_)
  rw [i33]

/-- The centred stage (both of its two printed copies). -/
theorem v38_at (r : Fin 100000) (e : Fin 256) :
    val_main_v38 (F := Ideal) x0 x1 x2 x3 x4 (ix2 r e)
      = centred (fun e' => val_main_v32 (F := Ideal) x0 x1 x2 x3 x4 (ix2 r e')) e := by
  rw [val_main_v38_apply, val_main_v37_apply, i37, v36_at]
  rfl

theorem v45_at (r : Fin 100000) (e : Fin 256) :
    val_main_v45 (F := Ideal) x0 x1 x2 x3 x4 (ix2 r e)
      = centred (fun e' => val_main_v32 (F := Ideal) x0 x1 x2 x3 x4 (ix2 r e')) e := by
  rw [val_main_v45_apply, val_main_v44_apply, i44, v36_at]
  rfl

/-- The column of row variances at row `r`: the mean of the squared centred row. -/
theorem v43_at (r : Fin 100000) :
    val_main_v43 (F := Ideal) x0 x1 x2 x3 x4 (ix2 r (0 : Fin 1))
      = mean (fun e => centred (fun e' => val_main_v32 (F := Ideal) x0 x1 x2 x3 x4 (ix2 r e')) e
          * centred (fun e' => val_main_v32 (F := Ideal) x0 x1 x2 x3 x4 (ix2 r e')) e) := by
  rw [val_main_v43_apply, val_main_v41_apply, val_main_v42_apply, val_main_cst_9_apply, i41, val_main_v40_apply,
    val_main_cst_8_apply]
  unfold mean
  simp only [Ideal.ofBits_def, Ideal.hostDivf_def]
  rw [Ideal.ofBits_zero_f32, zero_add]
  refine congrArg (fun s : EReal => Ideal.div s w256) (Finset.sum_congr rfl fun k _ => ?_)
  rw [i40, val_main_v39_apply, v38_at]
  rfl

/-- The normalised, scaled and shifted stage at (r, e). -/
theorem v56_at (r : Fin 100000) (e : Fin 256) :
    val_main_v56 (F := Ideal) x0 x1 x2 x3 x4 x5 x6 (ix2 r e)
      = layerNorm (fun e' => val_main_v32 (F := Ideal) x0 x1 x2 x3 x4 (ix2 r e')) (fun e' => x5 (ix1 e')) (fun e' => x6 (ix1 e')) e := by
  rw [val_main_v56_apply, val_main_v53_apply, val_main_v50_apply, v45_at, val_main_v49_apply, i49, val_main_v48_apply,
    val_main_v47_apply, v43_at, val_main_v46_apply, val_main_cst_10_apply, val_main_v52_apply, val_main_v51_apply, i52, i51,
    val_main_v55_apply, val_main_v54_apply, i55, i54]
  rfl

/-- The last stage at (r, e): entry `e` of node `r`'s result row. -/
theorem v62_at (r : Fin 100000) (e : Fin 256) :
    val_main_v62 (F := Ideal) x0 x1 x2 x3 x4 x5 x6 x7 x8 (ix2 r e)
      = outRow (fun k => val_main_v25 (F := Ideal) x0 x1 x2 (ix2 r k)) (val_main_v12 (F := Ideal) x2 (ix1 r))
          (fun k => x0 (ix2 r k)) (fun k e => x3 (ix2 k e)) (fun k e => x7 (ix2 k e))
          (fun e => x4 (ix1 e)) (fun e => x5 (ix1 e)) (fun e => x6 (ix1 e)) (fun e => x8 (ix1 e)) e := by
  rw [val_main_v62_apply, val_main_v57_apply, v56_at, val_main_call0_v0_apply, val_main_call0_cst_apply, val_main_v61_apply,
    val_main_v58_apply, val_main_v60_apply, val_main_v59_apply, i60, i59]
  have hg : (fun e' => val_main_v32 (F := Ideal) x0 x1 x2 x3 x4 (ix2 r e'))
      = affine (fun k => val_main_v25 (F := Ideal) x0 x1 x2 (ix2 r k) * val_main_v12 (F := Ideal) x2 (ix1 r))
          (fun k e => x3 (ix2 k e)) (fun e => x4 (ix1 e)) := funext fun e' => v32_at x0 x1 x2 x3 x4 r e'
  have hs : (∑ k : Fin 128, x0 (lidx_main_v58 (ix2 r e) k) * x7 (ridx_main_v58 (ix2 r e) k))
      = ∑ k : Fin 128, x0 (ix2 r k) * x7 (ix2 k e) := Finset.sum_congr rfl fun k _ => by rw [lidx58, ridx58]
  rw [hg, hs]
  rfl

/-- THE REFERENCE'S RESULT is the specification's array of the aggregated features and the degree factors it computes
    on the way, the features and the weights. -/
theorem ref_eq :
    val_main_v62 (F := Ideal) x0 x1 x2 x3 x4 x5 x6 x7 x8
      = result (val_main_v25 (F := Ideal) x0 x1 x2) x0 (val_main_v12 (F := Ideal) x2) x3 x7 x4 x5 x6 x8 := by
  funext i
  obtain ⟨r, e, rfl⟩ : ∃ (r : Fin 100000) (e : Fin 256), i = ix2 r e := ⟨i 0, i 1, eq_ix2 i⟩
  rw [result_apply]
  exact v62_at x0 x1 x2 x3 x7 x4 x5 x6 x8 r e

end Cert.ReferenceIdeal.RefValue

end
-- ==== Proof.Claims.lean ====
/-
  The two programs compute one array, and the five claims.

  The kernel's result array is the specification's array of what its grid reads (the blocks-to-array module); what the
  grid reads are the reference's own aggregated features and in-degree factors of the same arguments, the features and
  the weights as launched, and the four vectors laid out as one-row matrices (the prelude module), so read back as
  vectors they are the arguments. The reference's result is the specification's array of the same things (the
  reference module). From memories that agree on the nine arguments the two results are therefore equal entry by entry
  as extended reals. No law of arithmetic joins the two sides beyond each sum being the same sum: the products, the row
  sums, the quotient by 256 and the reciprocal square root stand in the same places on both, so the inputs'
  finiteness is never used.
-/
import proofs.«121359_j11914239279898_2_alg».proof.Defs
import proofs.«121359_j11914239279898_2_alg».proof.Proof.Gen.Kernel.Frame
import proofs.«121359_j11914239279898_2_alg».proof.Proof.Gen.KernelIdeal.Frame
import proofs.«121359_j11914239279898_2_alg».proof.Proof.Gen.Pre_finite_inputs
import proofs.«121359_j11914239279898_2_alg».proof.Proof.Gen.ReferenceIdeal.Run
import proofs.«121359_j11914239279898_2_alg».proof.Proof.Gen.ReferenceIdeal.Read
import proofs.«121359_j11914239279898_2_alg».proof.Proof.KernelValue
import proofs.«121359_j11914239279898_2_alg».proof.Proof.Prelude
import proofs.«121359_j11914239279898_2_alg».proof.Proof.RefValue
import proofs.«121359_j11914239279898_2_alg».proof.Proof.LibColumn
import Idealize.ShloMosaic.Lib.ValueLayout

noncomputable section

open Idealize.ShloMosaic Idealize.ShloMosaic.TcCoe Idealize.SL.Sem Idealize.ShloMosaic.ValueIdx

/-! ## The kernel's whole array over the arguments -/

namespace Cert.KernelIdeal.Whole

open Cert.KernelIdeal Cert.KernelIdeal.Gen Cert.GcnSpec

variable (m : (ℓ : Loc nD τ sig) → Buf (Elt Ideal) ℓ)

/-- The degree column read back as a vector is the reference's vector of in-degree factors. -/
theorem colVec_nd (c : Dev nD) :
    colVec (V m c main_v26) = Cert.ReferenceIdeal.Read.val_main_v12 (F := Ideal) (m ((c : Thread nD τ).loc main_arg2)) := by
  funext j
  obtain ⟨r, rfl⟩ : ∃ r : Fin 100000, j = ix1 r := ⟨j 0, eq_ix1 j⟩
  show (V m c main_v26 : S100000x1.Idx → EReal) (ix2 r (0 : Fin 1)) = _
  rw [Cert.KernelIdeal.Prelude.V_nd]
  exact Cert.LibColumn.shapeCast_a_a1_apply _ _ r 0

/-- Each one-row matrix read back as a vector is the argument it was made from. -/
theorem rowVec_b (c : Dev nD) : rowVec (V m c main_v27) = (m ((c : Thread nD τ).loc main_arg4)) := by
  funext j
  obtain ⟨e, rfl⟩ : ∃ e : Fin 256, j = ix1 e := ⟨j 0, eq_ix1 j⟩
  show (V m c main_v27 : S1x256.Idx → EReal) (ix2 (0 : Fin 1) e) = _
  rw [Cert.KernelIdeal.Prelude.V_b]
  exact shapeCast_a_1a_apply _ _ 0 e
theorem rowVec_gamma (c : Dev nD) : rowVec (V m c main_v28) = (m ((c : Thread nD τ).loc main_arg5)) := by
  funext j
  obtain ⟨e, rfl⟩ : ∃ e : Fin 256, j = ix1 e := ⟨j 0, eq_ix1 j⟩
  show (V m c main_v28 : S1x256.Idx → EReal) (ix2 (0 : Fin 1) e) = _
  rw [Cert.KernelIdeal.Prelude.V_gamma]
  exact shapeCast_a_1a_apply _ _ 0 e
theorem rowVec_beta (c : Dev nD) : rowVec (V m c main_v29) = (m ((c : Thread nD τ).loc main_arg6)) := by
  funext j
  obtain ⟨e, rfl⟩ : ∃ e : Fin 256, j = ix1 e := ⟨j 0, eq_ix1 j⟩
  show (V m c main_v29 : S1x256.Idx → EReal) (ix2 (0 : Fin 1) e) = _
  rw [Cert.KernelIdeal.Prelude.V_beta]
  exact shapeCast_a_1a_apply _ _ 0 e
theorem rowVec_skipb (c : Dev nD) : rowVec (V m c main_v30) = (m ((c : Thread nD τ).loc main_arg8)) := by
  funext j
  obtain ⟨e, rfl⟩ : ∃ e : Fin 256, j = ix1 e := ⟨j 0, eq_ix1 j⟩
  show (V m c main_v30 : S1x256.Idx → EReal) (ix2 (0 : Fin 1) e) = _
  rw [Cert.KernelIdeal.Prelude.V_skipb]
  exact shapeCast_a_1a_apply _ _ 0 e

/-- THE KERNEL'S RESULT over the arguments: the specification's array of the reference's aggregated features and
    in-degree factors of the arguments, the features and the weights. -/
theorem whole_eq (c : Dev nD) :
    whole m c = result (Cert.ReferenceIdeal.Read.val_main_v25 (F := Ideal) (m ((c : Thread nD τ).loc main_arg0)) (m ((c : Thread nD τ).loc main_arg1)) (m ((c : Thread nD τ).loc main_arg2))) (m ((c : Thread nD τ).loc main_arg0))
      (Cert.ReferenceIdeal.Read.val_main_v12 (F := Ideal) (m ((c : Thread nD τ).loc main_arg2))) (m ((c : Thread nD τ).loc main_arg3)) (m ((c : Thread nD τ).loc main_arg7)) (m ((c : Thread nD τ).loc main_arg4)) (m ((c : Thread nD τ).loc main_arg5)) (m ((c : Thread nD τ).loc main_arg6)) (m ((c : Thread nD τ).loc main_arg8)) := by
  unfold whole
  rw [colVec_nd, rowVec_b, rowVec_gamma, rowVec_beta, rowVec_skipb, Cert.KernelIdeal.Prelude.V_agg, V_main_arg0, V_main_arg3,
    V_main_arg7]

end Cert.KernelIdeal.Whole

/-! ## The claims -/

namespace Cert.Proof.GcnClaims

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing: the idealized kernel is the kernel's own text read over the extended reals. -/
theorem preserves : Cert.preserves_Kernel_KernelIdeal := trivial

/-- From memories agreeing on the arguments, the kernel's result array and the reference's end equal: both are the
    specification's array of the same aggregated features, degree factors, features and weights. -/
theorem algebraic : Cert.algebraic_KernelIdeal_ReferenceIdeal := by
  intro m ρ m' ρ' _ hagree
  refine ⟨fun c => Cert.KernelIdeal.Whole.whole m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8⟩ := hagree c
  dsimp only
  rw [Cert.ReferenceIdeal.Read.val_main_v62_eq, Cert.ReferenceIdeal.RefValue.ref_eq, Cert.KernelIdeal.Whole.whole_eq,
    e0, e1, e2, e3, e4, e5, e6, e7, e8]

end Cert.Proof.GcnClaims

end
-- ==== Proof.lean ====
/- The proof of `Cert.Claim` (proofs.«121359_j11914239279898_2_alg».proof.Defs): a graph-convolution block over 100000 nodes and
   1600000 edges — the features scaled by each node's out-degree factor, summed along the edges into their destination
   nodes and scaled by the in-degree factor; a linear map from 128 to 256 entries with a bias; layer normalisation of each
   node's 256 entries with a scale and a shift; a clip below at zero; and a second linear map of the node's own features
   added — computed by a program that does the edge sums on the host and everything after them in one kernel tiled over
   the nodes, ten blocks of 10000 rows, against the same block written with whole-array operations.

   Over the extended reals the two agree entry by entry. The modules: Proof/Spec.lean states a node's result row and the
   whole result array as one function of the aggregated features, the in-degree factors, the features and the weights;
   Proof/Block.lean shows that the kernel's body stores, at each row of its block, that row's result row; Proof/KernelValue.lean
   that the ten blocks are the blocks of one array and tile it, so the kernel's result array is that array;
   Proof/Prelude.lean that what the kernel's grid reads are the reference's own aggregated features and in-degree factors of
   the same arguments (the two programs compute them by the same operations); Proof/RefValue.lean that the reference's
   result is the same function of them; Proof/Claims.lean joins the two and states the five claims. Proof/LibColumn.lean and
   Proof/LibPlainDot.lean are general lemmas: a kept-dimension column read at an index, and a plain matrix product read at
   an index as a finite sum.

   The three frames are the generated frame certificates (the reference's is its generated run with the result dropped);
   the idealization rewrote nothing, so the kernel's idealization is its own text read over the extended reals. -/
import proofs.«121359_j11914239279898_2_alg».proof.Defs
import proofs.«121359_j11914239279898_2_alg».proof.Proof.Gen.Kernel
import proofs.«121359_j11914239279898_2_alg».proof.Proof.Gen.Kernel.Skeleton
import proofs.«121359_j11914239279898_2_alg».proof.Proof.Gen.Kernel.Launch
import proofs.«121359_j11914239279898_2_alg».proof.Proof.Gen.Kernel.Points
import proofs.«121359_j11914239279898_2_alg».proof.Proof.Gen.Kernel.Frame
import proofs.«121359_j11914239279898_2_alg».proof.Proof.Gen.KernelIdeal
import proofs.«121359_j11914239279898_2_alg».proof.Proof.Gen.KernelIdeal.Skeleton
import proofs.«121359_j11914239279898_2_alg».proof.Proof.Gen.KernelIdeal.Launch
import proofs.«121359_j11914239279898_2_alg».proof.Proof.Gen.KernelIdeal.Points
import proofs.«121359_j11914239279898_2_alg».proof.Proof.Gen.KernelIdeal.Frame
import proofs.«121359_j11914239279898_2_alg».proof.Proof.Gen.ReferenceIdeal
import proofs.«121359_j11914239279898_2_alg».proof.Proof.Gen.Pre_finite_inputs
import proofs.«121359_j11914239279898_2_alg».proof.Proof.Gen.KernelIdeal.Value
import proofs.«121359_j11914239279898_2_alg».proof.Proof.Gen.ReferenceIdeal.Run
import proofs.«121359_j11914239279898_2_alg».proof.Proof.Gen.ReferenceIdeal.Read
import proofs.«121359_j11914239279898_2_alg».proof.Proof.Claims
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    GcnClaims.frame_k, GcnClaims.frame_ki, GcnClaims.frame_ri, GcnClaims.preserves, GcnClaims.algebraic⟩

end Cert.Proof

end
